-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg8 : FVec F S512 .f32) (main_arg9 : FVec F S512x128 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x512 .f32) (main_arg6 : FVec F S512 .f32) (main_arg7 : FVec F S512x512 .f32) (main_arg8 : FVec F S512 .f32) (main_arg9 : FVec F S512x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg5
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x600000 32) (main_arg2 : FVec F S128x128 .f32) (main_arg3 : FVec F S128x128 .f32) (main_arg4 : FVec F S128 .f32) (main_arg5 : FVec F S128x512 .f32) (main_arg6 : FVec F S512 .f32) (main_arg7 : FVec F S512x512 .f32) (main_arg8 : FVec F S512 .f32) (main_arg9 : FVec F S512x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S1x512 : Shape := ⟨2, ![1, 512]⟩
abbrev S1000x128 : Shape := ⟨2, ![1000, 128]⟩
abbrev S1000x512 : Shape := ⟨2, ![1000, 512]⟩

abbrev nBuf : Space → Nat
  | .hbm => 45
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S100000, .f32⟩
  | .hbm, ⟨32, _⟩ => ⟨S600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S1x512, .f32⟩
  | .hbm, ⟨42, _⟩ => ⟨S1x512, .f32⟩
  | .hbm, ⟨43, _⟩ => ⟨S1x128, .f32⟩
  | .hbm, ⟨44, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S512x128, .f32⟩
  | .local _ .vmem, ⟨12, _⟩ => ⟨S1x128, .f32⟩
  | .local _ .vmem, ⟨13, _⟩ => ⟨S1000x128, .f32⟩
  | .local _ .vmem, ⟨14, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S512_S1x512 : S512.ShapeCasts S1x512
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S1000x128_S128x128_S1000x128_1_0_0_1_n_n_wf : DotDims.WF S1000x128 S128x128 S1000x128 [1] [0] [0] [1] [] []
  dot_S1000x128_S128x512_S1000x512_1_0_0_1_n_n_wf : DotDims.WF S1000x128 S128x512 S1000x512 [1] [0] [0] [1] [] []
  dot_S1000x512_S512x512_S1000x512_1_0_0_1_n_n_wf : DotDims.WF S1000x512 S512x512 S1000x512 [1] [0] [0] [1] [] []
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .f32 = 32 ∨ (Rect.block (s := S512x128) S512x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x128.size a ≤ S100000x128.size a
  hwx0_11 : ∀ i : grid0.Coords, EltTy.bits .f32 = 32 ∨ (Rect.block (s := S100000x128) S1000x128.size (cc0_transform_11 i) (hinb0_11 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_v22) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S100000x512 : Shape := ⟨2, ![100000, 512]⟩
abbrev S1x512 : Shape := ⟨2, ![1, 512]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S100000, .f32⟩
  | .hbm, ⟨32, _⟩ => ⟨S600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S100000x512, .f32⟩
  | .hbm, ⟨50, _⟩ => ⟨S1x512, .f32⟩
  | .hbm, ⟨51, _⟩ => ⟨S100000x512, .f32⟩
  | .hbm, ⟨52, _⟩ => ⟨S100000x512, .f32⟩
  | .hbm, ⟨53, _⟩ => ⟨S100000x512, .f32⟩
  | .hbm, ⟨54, _⟩ => ⟨S100000x512, .f32⟩
  | .hbm, ⟨55, _⟩ => ⟨S1x512, .f32⟩
  | .hbm, ⟨56, _⟩ => ⟨S100000x512, .f32⟩
  | .hbm, ⟨57, _⟩ => ⟨S100000x512, .f32⟩
  | .hbm, ⟨58, _⟩ => ⟨S100000x512, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x512_S100000x512_1_0_0_1_n_n_wf : DotDims.WF S100000x128 S128x512 S100000x512 [1] [0] [0] [1] [] []
  dot_S100000x512_S512x512_S100000x512_1_0_0_1_n_n_wf : DotDims.WF S100000x512 S512x512 S100000x512 [1] [0] [0] [1] [] []
  dot_S100000x512_S512x128_S100000x128_1_0_0_1_n_n_wf : DotDims.WF S100000x512 S512x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibDenseLayer.lean ====
/-
  A dense layer read at an entry.

  For a row `x`, a weight matrix `W` and a bias `b`, entry `c` of `x · W + b` is the sum over the contracted coordinate `h`
  of `x h * W h c`, plus `b c`, on the extended reals. A matrix product of `[n, k]` by `[k, o]` into a zero accumulator has
  at entry `(p, q)` the sum over `h` of the left operand at `(p, h)` times the right at `(h, q)`; rounding an operand to a
  narrower float format first is the identity on the extended reals; a bias held as a row `[1, o]` and broadcast down
  the `n` rows contributes its entry `(0, q)`. So entry `(p, q)` of such a layer is `affine` of row `p` of the left operand.
-/
import proofs.«167504_j47536698032170_1_alg».proof.Proof.LibMatProduct
import Idealize.ShloMosaic.Lib.ValueIdx
import Idealize.ShloMosaic.Lib.ValueLayout
import Idealize.ShloMosaic.Lib.Pipeline.Value

noncomputable section

namespace Cert.LibDenseLayer

open Idealize.ShloMosaic Idealize.ShloMosaic.ValueIdx

/-- Entry `c` of `x · W + b`: the sum over the contracted coordinate, then the bias. Rows, matrices and biases are plain
    functions of their coordinates, so that a row of an array, a row of a block, a `[n]` bias and a `[1, n]` bias all fit. -/
def affine {k o : ℕ} (x : Fin k → EReal) (W : Fin k → Fin o → EReal) (b : Fin o → EReal) (c : Fin o) : EReal :=
  (∑ h : Fin k, x h * W h c) + b c

/-- Entry `(p, q)` of a matrix product `[n, k] · [k, o]` (the left operand's columns contracted with the right operand's
    rows, no batch axes) into a zero accumulator is `∑ h, X (p, h) * W (h, q)`. -/
theorem matmul_at {n k o : ℕ} {φ₁ φ₂ : FTy} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ φ₁) (W : FVec Ideal ⟨2, ![k, o]⟩ φ₂) (p : Fin n) (q : Fin o) :
    matmul d none X W (constant ⟨2, ![n, o]⟩ .f32 0x00000000#32) (ix2 p q) = ∑ h : Fin k, X (ix2 p h) * W (ix2 h q) :=
  Cert.LibMatProduct.matmul_zero_apply d none hlc hrc hln hrn hlb hrb X W p q

/-- ONE DENSE LAYER at entry `(p, q)`: the product of `X` and `W` (each first rounded to a narrower format) into a zero
    accumulator, plus the bias row `b : [1, o]` broadcast down the rows, is `affine` of row `p` of `X`, of `W` and of the
    bias row, at `q`: `∑ h, X (p, h) * W (h, q) + b (0, q)`. -/
theorem dense_at {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ .f32) (W : FVec Ideal ⟨2, ![k, o]⟩ .f32) (b : FVec Ideal ⟨2, ![1, o]⟩ .f32)
    (hX : FTy.bf16.bits < FTy.f32.bits) (hW : FTy.bf16.bits < FTy.f32.bits)
    (hs : (⟨2, ![1, o]⟩ : Shape).ShapeCasts ⟨2, ![1, o]⟩) (hb : (⟨2, ![1, o]⟩ : Shape).Broadcasts ⟨2, ![n, o]⟩)
    (p : Fin n) (q : Fin o) :
    addf (matmul d none (truncf .bf16 X hX) (truncf .bf16 W hW) (constant ⟨2, ![n, o]⟩ .f32 0x00000000#32))
        (broadcastTo ⟨2, ![n, o]⟩ (shapeCast ⟨2, ![1, o]⟩ b hs) hb) (ix2 p q)
      = affine (fun h => X (ix2 p h)) (fun h c => W (ix2 h c)) (fun c => b (ix2 (0 : Fin 1) c)) q := by
  rw [addf_apply, matmul_at d hlc hrc hln hrn hlb hrb, broadcastTo_1b_ab_apply, shapeCast_self]
  rfl

end Cert.LibDenseLayer

end
-- ==== Proof.Spec.lean ====
/-
  The function both programs compute, row by row.

  Every output row depends on one row `a` of the mean-aggregated neighbour features and the same row `z` of the node
  features, through four dense layers:

    u  = max (a · Wg + z · Ws + bg) 0                 (128 entries)
    v  = tanh (u · W1 + b1)                           (512 entries)
    w  = tanh (v · W2 + b2)                           (512 entries)
    out = w · W3 + b3                                 (128 entries)

  where `x · W + b` at entry `c` is the sum over `h` of `x h * W h c`, plus `b c`, on the extended reals (`affine`). Rows,
  weight matrices and biases are plain functions of their coordinates here, so that a row of a large array, a row of
  one of its blocks, a `[128]` bias and a `[1, 128]` bias all feed the same definitions.
-/
import proofs.«167504_j47536698032170_1_alg».proof.Proof.LibDenseLayer
import Idealize.ShloMosaic.PureOps.Ideal

noncomputable section

namespace Cert.RowMlp

open Idealize.ShloMosaic Cert.LibDenseLayer

/-- Entry `c` of the graph-convolution layer `max (a · Wg + z · Ws + bg) 0`; the zero is the float word `0x00000000`. -/
def conv (a z : Fin 128 → EReal) (Wg Ws : Fin 128 → Fin 128 → EReal) (bg : Fin 128 → EReal) (c : Fin 128) : EReal :=
  max (((∑ h : Fin 128, a h * Wg h c) + (∑ h : Fin 128, z h * Ws h c)) + bg c) (Ideal.ofBits .f32 0x00000000#32)

/-- Entry `c` of the first hidden layer `tanh (u · W1 + b1)`. -/
def hidden1 (a z : Fin 128 → EReal) (Wg Ws : Fin 128 → Fin 128 → EReal) (bg : Fin 128 → EReal)
    (W1 : Fin 128 → Fin 512 → EReal) (b1 : Fin 512 → EReal) (c : Fin 512) : EReal :=
  Ideal.tanh (affine (conv a z Wg Ws bg) W1 b1 c)

/-- Entry `c` of the second hidden layer `tanh (v · W2 + b2)`. -/
def hidden2 (a z : Fin 128 → EReal) (Wg Ws : Fin 128 → Fin 128 → EReal) (bg : Fin 128 → EReal)
    (W1 : Fin 128 → Fin 512 → EReal) (b1 : Fin 512 → EReal) (W2 : Fin 512 → Fin 512 → EReal) (b2 : Fin 512 → EReal)
    (c : Fin 512) : EReal :=
  Ideal.tanh (affine (hidden1 a z Wg Ws bg W1 b1) W2 b2 c)

/-- Entry `c` of the output row `w · W3 + b3`. -/
def rowOut (a z : Fin 128 → EReal) (Wg Ws : Fin 128 → Fin 128 → EReal) (bg : Fin 128 → EReal)
    (W1 : Fin 128 → Fin 512 → EReal) (b1 : Fin 512 → EReal) (W2 : Fin 512 → Fin 512 → EReal) (b2 : Fin 512 → EReal)
    (W3 : Fin 512 → Fin 128 → EReal) (b3 : Fin 128 → EReal) (c : Fin 128) : EReal :=
  affine (hidden2 a z Wg Ws bg W1 b1 W2 b2) W3 b3 c

end Cert.RowMlp

end
-- ==== Proof.KernelRow.lean ====
/-
  The kernel body's stored value, read one row at a time.

  The body loads a block of 1000 rows of the aggregated features and of the node features, the whole weight
  matrices and the biases as `[1, n]` rows, and stores one value: four matrix products into zero accumulators, each
  followed by its bias row broadcast down the rows, with `max · 0` after the first and `tanh` after the second and
  third. Rounding to a narrower float format is the identity on the extended reals. A product's entry `(p, q)` is the sum
  over the contracted coordinate `h` of the left operand at `(p, h)` times the weight at `(h, q)`; so entry `(p, q)` of
  the stored value is the row function of `Spec.lean` applied to row `p` of the two loaded blocks.
-/
import proofs.«167504_j47536698032170_1_alg».proof.Proof.Gen.KernelIdeal.Skeleton
import proofs.«167504_j47536698032170_1_alg».proof.Proof.Spec
import Idealize.ShloMosaic.Lib.ValueIdx
import Idealize.ShloMosaic.Lib.ValueLayout
import Idealize.ShloMosaic.Lib.Pipeline.Value

noncomputable section

namespace Cert.RowMlp.Ker

open Cert.KernelIdeal Cert.KernelIdeal.Gen Idealize.ShloMosaic Idealize.ShloMosaic.ValueIdx Cert.LibDenseLayer

variable (x0 x1 : FVec Ideal S1000x128 .f32) (x2 x3 : FVec Ideal S128x128 .f32) (x4 : FVec Ideal S1x128 .f32)
  (x5 : FVec Ideal S128x512 .f32) (x6 : FVec Ideal S1x512 .f32) (x7 : FVec Ideal S512x512 .f32)
  (x8 : FVec Ideal S1x512 .f32) (x9 : FVec Ideal S512x128 .f32) (x10 : FVec Ideal S1x128 .f32)

/-! ## The body's intermediate blocks, named -/

/-- The graph-convolution block `max (A · Wg + Z · Ws + bg) 0`, as the body computes it. -/
def convBlk : FVec Ideal S1000x128 .f32 :=
  maximumf
    (addf
      (addf
        (matmul dot_S1000x128_S128x128_S1000x128_1_0_0_1_n_n none
          (truncf .bf16 (shapeCast S1000x128 x0 shapeCasts_S1000x128_S1000x128) bitsLt_bf16_f32) (truncf .bf16 x2 bitsLt_bf16_f32)
          (constant S1000x128 .f32 0x00000000#32))
        (matmul dot_S1000x128_S128x128_S1000x128_1_0_0_1_n_n none
          (truncf .bf16 x1 bitsLt_bf16_f32) (truncf .bf16 x3 bitsLt_bf16_f32) (constant S1000x128 .f32 0x00000000#32)))
      (broadcastTo S1000x128 (shapeCast S1x128 x4 shapeCasts_S1x128_S1x128) broadcasts_S1x128_S1000x128))
    (broadcast S1000x128 (Scalar.ofBits .f32 0x00000000#32))

/-- The first hidden block `tanh (U · W1 + b1)`. -/
def hidden1Blk : FVec Ideal S1000x512 .f32 :=
  tanh (addf
    (matmul dot_S1000x128_S128x512_S1000x512_1_0_0_1_n_n none
      (truncf .bf16 (convBlk x0 x1 x2 x3 x4) bitsLt_bf16_f32) (truncf .bf16 x5 bitsLt_bf16_f32) (constant S1000x512 .f32 0x00000000#32))
    (broadcastTo S1000x512 (shapeCast S1x512 x6 shapeCasts_S1x512_S1x512) broadcasts_S1x512_S1000x512))

/-- The second hidden block `tanh (V · W2 + b2)`. -/
def hidden2Blk : FVec Ideal S1000x512 .f32 :=
  tanh (addf
    (matmul dot_S1000x512_S512x512_S1000x512_1_0_0_1_n_n none
      (truncf .bf16 (hidden1Blk x0 x1 x2 x3 x4 x5 x6) bitsLt_bf16_f32) (truncf .bf16 x7 bitsLt_bf16_f32) (constant S1000x512 .f32 0x00000000#32))
    (broadcastTo S1000x512 (shapeCast S1x512 x8 shapeCasts_S1x512_S1x512) broadcasts_S1x512_S1000x512))

/-- The body's first payload is the second hidden block. -/
theorem pay2_eq : k0_pay2 (F := Ideal) x0 x1 x2 x3 x4 x5 x6 x7 x8 = hidden2Blk x0 x1 x2 x3 x4 x5 x6 x7 x8 := rfl

/-- The stored payload is the last dense layer of whatever block it is given. -/
theorem pay1_eq (w : FVec Ideal S1000x512 .f32) :
    k0_pay1 (F := Ideal) w x9 x10
      = addf (matmul dot_S1000x512_S512x128_S1000x128_1_0_0_1_n_n none
          (truncf .bf16 w bitsLt_bf16_f32) (truncf .bf16 x9 bitsLt_bf16_f32) (constant S1000x128 .f32 0x00000000#32))
        (broadcastTo S1000x128 (shapeCast S1x128 x10 shapeCasts_S1x128_S1x128) broadcasts_S1x128_S1000x128) := rfl

/-! ## Each block at entry `(p, q)` -/

/-- The graph-convolution block at `(p, q)`. -/
theorem convBlk_at (p : Fin 1000) (q : Fin 128) :
    convBlk x0 x1 x2 x3 x4 (ix2 p q)
      = conv (fun h => x0 (ix2 p h)) (fun h => x1 (ix2 p h)) (fun h c => x2 (ix2 h c)) (fun h c => x3 (ix2 h c))
          (fun c => x4 (ix2 (0 : Fin 1) c)) q := by
  unfold convBlk
  rw [maximumf_apply, addf_apply, addf_apply,
    matmul_at dot_S1000x128_S128x128_S1000x128_1_0_0_1_n_n rfl rfl rfl rfl rfl rfl,
    matmul_at dot_S1000x128_S128x128_S1000x128_1_0_0_1_n_n rfl rfl rfl rfl rfl rfl,
    broadcastTo_1b_ab_apply, shapeCast_self, shapeCast_self]
  rfl

/-- The first hidden block at `(p, q)`. -/
theorem hidden1Blk_at (p : Fin 1000) (q : Fin 512) :
    hidden1Blk x0 x1 x2 x3 x4 x5 x6 (ix2 p q)
      = hidden1 (fun h => x0 (ix2 p h)) (fun h => x1 (ix2 p h)) (fun h c => x2 (ix2 h c)) (fun h c => x3 (ix2 h c))
          (fun c => x4 (ix2 (0 : Fin 1) c)) (fun h c => x5 (ix2 h c)) (fun c => x6 (ix2 (0 : Fin 1) c)) q := by
  unfold hidden1Blk
  show Ideal.tanh (_ : EReal) = _
  rw [dense_at dot_S1000x128_S128x512_S1000x512_1_0_0_1_n_n rfl rfl rfl rfl rfl rfl]
  simp only [convBlk_at]
  rfl

/-- The second hidden block at `(p, q)`. -/
theorem hidden2Blk_at (p : Fin 1000) (q : Fin 512) :
    hidden2Blk x0 x1 x2 x3 x4 x5 x6 x7 x8 (ix2 p q)
      = hidden2 (fun h => x0 (ix2 p h)) (fun h => x1 (ix2 p h)) (fun h c => x2 (ix2 h c)) (fun h c => x3 (ix2 h c))
          (fun c => x4 (ix2 (0 : Fin 1) c)) (fun h c => x5 (ix2 h c)) (fun c => x6 (ix2 (0 : Fin 1) c))
          (fun h c => x7 (ix2 h c)) (fun c => x8 (ix2 (0 : Fin 1) c)) q := by
  unfold hidden2Blk
  show Ideal.tanh (_ : EReal) = _
  rw [dense_at dot_S1000x512_S512x512_S1000x512_1_0_0_1_n_n rfl rfl rfl rfl rfl rfl]
  simp only [hidden1Blk_at]
  rfl

/-- THE STORED VALUE at `(p, q)`: the row function of row `p` of the two loaded row blocks, at `q`. -/
theorem stored_at (p : Fin 1000) (q : Fin 128) :
    k0_pay1 (F := Ideal) (k0_pay2 (F := Ideal) x0 x1 x2 x3 x4 x5 x6 x7 x8) x9 x10 (ix2 p q)
      = rowOut (fun h => x0 (ix2 p h)) (fun h => x1 (ix2 p h)) (fun h c => x2 (ix2 h c)) (fun h c => x3 (ix2 h c))
          (fun c => x4 (ix2 (0 : Fin 1) c)) (fun h c => x5 (ix2 h c)) (fun c => x6 (ix2 (0 : Fin 1) c))
          (fun h c => x7 (ix2 h c)) (fun c => x8 (ix2 (0 : Fin 1) c))
          (fun h c => x9 (ix2 h c)) (fun c => x10 (ix2 (0 : Fin 1) c)) q := by
  rw [pay2_eq, pay1_eq, dense_at dot_S1000x512_S512x128_S1000x128_1_0_0_1_n_n rfl rfl rfl rfl rfl rfl]
  simp only [hidden2Blk_at]
  rfl

end Cert.RowMlp.Ker

end
-- ==== Proof.BlockIndex.lean ====
/-
  The result as one function of the arrays, and where each window's block sits.

  The grid has 100 points. At point `t` the windows of the aggregated features, of the node features and of the result
  are at block row `t` (rows `1000 t … 1000 t + 999` of their arrays), and every weight and bias window stays at its one
  block, the whole array. `G` is the function the result array will be shown to hold: its row `r` is the row function
  of row `r` of the two row arrays.
-/
import proofs.«167504_j47536698032170_1_alg».proof.Proof.Gen.KernelIdeal.Frame
import proofs.«167504_j47536698032170_1_alg».proof.Proof.Spec
import Idealize.ShloMosaic.Lib.ValueIdx

noncomputable section

namespace Cert.RowMlp.Whole

open Cert.KernelIdeal Cert.KernelIdeal.Gen Idealize.ShloMosaic Idealize.ShloMosaic.TcCoe Idealize.SL.Sem
open Idealize.ShloMosaic.ValueIdx
open Idealize.ShloMosaic.Pipeline (Dat)

/-- The result array as one function of the arrays the region finds: row `r` is the row function of row `r` of the
    aggregated features `A` and of the node features `Z`; the biases are `[1, n]` rows. -/
def G (A Z : S100000x128.Idx → EReal) (Wg Ws : S128x128.Idx → EReal) (bg : S1x128.Idx → EReal)
    (W1 : S128x512.Idx → EReal) (b1 : S1x512.Idx → EReal) (W2 : S512x512.Idx → EReal) (b2 : S1x512.Idx → EReal)
    (W3 : S512x128.Idx → EReal) (b3 : S1x128.Idx → EReal) : S100000x128.Idx → EReal :=
  fun i => rowOut (fun h => A (ix2 (i 0) h)) (fun h => Z (ix2 (i 0) h)) (fun h c => Wg (ix2 h c)) (fun h c => Ws (ix2 h c))
    (fun c => bg (ix2 (0 : Fin 1) c)) (fun h c => W1 (ix2 h c)) (fun c => b1 (ix2 (0 : Fin 1) c))
    (fun h c => W2 (ix2 h c)) (fun c => b2 (ix2 (0 : Fin 1) c)) (fun h c => W3 (ix2 h c)) (fun c => b3 (ix2 (0 : Fin 1) c)) (i 1)

theorem G_at (A Z : S100000x128.Idx → EReal) (Wg Ws : S128x128.Idx → EReal) (bg : S1x128.Idx → EReal)
    (W1 : S128x512.Idx → EReal) (b1 : S1x512.Idx → EReal) (W2 : S512x512.Idx → EReal) (b2 : S1x512.Idx → EReal)
    (W3 : S512x128.Idx → EReal) (b3 : S1x128.Idx → EReal) (r : Fin 100000) (q : Fin 128) :
    G A Z Wg Ws bg W1 b1 W2 b2 W3 b3 (ix2 r q)
      = rowOut (fun h => A (ix2 r h)) (fun h => Z (ix2 r h)) (fun h c => Wg (ix2 h c)) (fun h c => Ws (ix2 h c))
          (fun c => bg (ix2 (0 : Fin 1) c)) (fun h c => W1 (ix2 h c)) (fun c => b1 (ix2 (0 : Fin 1) c))
          (fun h c => W2 (ix2 h c)) (fun c => b2 (ix2 (0 : Fin 1) c)) (fun h c => W3 (ix2 h c))
          (fun c => b3 (ix2 (0 : Fin 1) c)) q := rfl

theorem hz : (![0, 0] : Fin 2 → Nat) = fun _ => 0 := funext fun a => by fin_cases a <;> rfl

/-! ## The index maps, decided over the 100 grid points -/

/-- The three row windows are at block row `t`, block column `0`. -/
theorem rowIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- Every weight and bias window stays at block `(0, 0)`. -/
theorem fixedIdx : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Row `p` of the block of point `t` is row `1000 t + p` of the array. -/
def rowOf (t : Fin cfg0.N) (p : Fin 1000) : Fin 100000 :=
  ⟨t.val * 1000 + p.val, by have ht : t.val < 100 := N_0 ▸ t.isLt; have hp := p.isLt; omega⟩

end Cert.RowMlp.Whole

end
-- ==== Proof.BlockReads.lean ====
/-
  A window's block at a grid point, read in an array.

  Entry `(p, h)` of a row window's block at point `t` is entry `(1000 t + p, h)` of the array it is read in; a weight or
  bias window's one block is the whole array. A block's coordinate on an axis is always block index × block size + the
  coordinate inside. The array is arbitrary here: nothing depends on what it holds.
-/
import proofs.«167504_j47536698032170_1_alg».proof.Proof.BlockIndex

noncomputable section

namespace Cert.RowMlp.Whole

open Cert.KernelIdeal Cert.KernelIdeal.Gen Idealize.ShloMosaic Idealize.ShloMosaic.TcCoe Idealize.SL.Sem
open Idealize.ShloMosaic.ValueIdx
open Idealize.ShloMosaic.Pipeline (Dat)

/-- Row `p` of window 0's block at point `t`, read in any array, is row `1000 t + p` of the array. -/
theorem read0 (X : S100000x128.Idx → EReal) (t : Fin cfg0.N) (p : Fin 1000) (h : Fin 128) :
    (((cfg0.win 0).blk t).view.read (Elt Ideal) X) (ix2 p h) = X (ix2 (rowOf t p) h) := by
  have e0 : win0_0.index t (0 : Fin 2) = t.val := (rowIdx t).1
  have e1 : win0_0.index t (1 : Fin 2) = 0 := (rowIdx t).2.1
  show X (((cfg0.win 0).blk t).view.emb (ix2 p h)) = _
  refine congrArg X (funext fun ax => Fin.ext ?_)
  match ax with
  | ⟨0, _⟩ => show win0_0.index t (0 : Fin 2) * 1000 + 1 * p.val = t.val * 1000 + p.val; omega
  | ⟨1, _⟩ => show win0_0.index t (1 : Fin 2) * 128 + 1 * h.val = h.val; omega

/-- Row `p` of window 1's block at point `t`, read in any array, is row `1000 t + p` of the array. -/
theorem read1 (X : S100000x128.Idx → EReal) (t : Fin cfg0.N) (p : Fin 1000) (h : Fin 128) :
    (((cfg0.win 1).blk t).view.read (Elt Ideal) X) (ix2 p h) = X (ix2 (rowOf t p) h) := by
  have e0 : win0_1.index t (0 : Fin 2) = t.val := (rowIdx t).2.2.1
  have e1 : win0_1.index t (1 : Fin 2) = 0 := (rowIdx t).2.2.2.1
  show X (((cfg0.win 1).blk t).view.emb (ix2 p h)) = _
  refine congrArg X (funext fun ax => Fin.ext ?_)
  match ax with
  | ⟨0, _⟩ => show win0_1.index t (0 : Fin 2) * 1000 + 1 * p.val = t.val * 1000 + p.val; omega
  | ⟨1, _⟩ => show win0_1.index t (1 : Fin 2) * 128 + 1 * h.val = h.val; omega

/-- Window 2's one block, read in any array, is the array. -/
theorem read2 (X : S128x128.Idx → EReal) (t : Fin cfg0.N) (u : Fin 128) (k : Fin 128) :
    (((cfg0.win 2).blk t).view.read (Elt Ideal) X) (ix2 u k) = X (ix2 u k) := by
  have e0 : win0_2.index t (0 : Fin 2) = 0 := (fixedIdx t).1.1
  have e1 : win0_2.index t (1 : Fin 2) = 0 := (fixedIdx t).1.2
  show X (((cfg0.win 2).blk t).view.emb (ix2 u k)) = _
  refine congrArg X (funext fun ax => Fin.ext ?_)
  match ax with
  | ⟨0, _⟩ => show win0_2.index t (0 : Fin 2) * 128 + 1 * u.val = u.val; omega
  | ⟨1, _⟩ => show win0_2.index t (1 : Fin 2) * 128 + 1 * k.val = k.val; omega

/-- Window 3's one block, read in any array, is the array. -/
theorem read3 (X : S128x128.Idx → EReal) (t : Fin cfg0.N) (u : Fin 128) (k : Fin 128) :
    (((cfg0.win 3).blk t).view.read (Elt Ideal) X) (ix2 u k) = X (ix2 u k) := by
  have e0 : win0_3.index t (0 : Fin 2) = 0 := (fixedIdx t).2.1.1
  have e1 : win0_3.index t (1 : Fin 2) = 0 := (fixedIdx t).2.1.2
  show X (((cfg0.win 3).blk t).view.emb (ix2 u k)) = _
  refine congrArg X (funext fun ax => Fin.ext ?_)
  match ax with
  | ⟨0, _⟩ => show win0_3.index t (0 : Fin 2) * 128 + 1 * u.val = u.val; omega
  | ⟨1, _⟩ => show win0_3.index t (1 : Fin 2) * 128 + 1 * k.val = k.val; omega

/-- Window 4's one block, read in any array, is the array. -/
theorem read4 (X : S1x128.Idx → EReal) (t : Fin cfg0.N) (u : Fin 1) (k : Fin 128) :
    (((cfg0.win 4).blk t).view.read (Elt Ideal) X) (ix2 u k) = X (ix2 u k) := by
  have e0 : win0_4.index t (0 : Fin 2) = 0 := (fixedIdx t).2.2.1.1
  have e1 : win0_4.index t (1 : Fin 2) = 0 := (fixedIdx t).2.2.1.2
  show X (((cfg0.win 4).blk t).view.emb (ix2 u k)) = _
  refine congrArg X (funext fun ax => Fin.ext ?_)
  match ax with
  | ⟨0, _⟩ => show win0_4.index t (0 : Fin 2) * 1 + 1 * u.val = u.val; omega
  | ⟨1, _⟩ => show win0_4.index t (1 : Fin 2) * 128 + 1 * k.val = k.val; omega

/-- Window 5's one block, read in any array, is the array. -/
theorem read5 (X : S128x512.Idx → EReal) (t : Fin cfg0.N) (u : Fin 128) (k : Fin 512) :
    (((cfg0.win 5).blk t).view.read (Elt Ideal) X) (ix2 u k) = X (ix2 u k) := by
  have e0 : win0_5.index t (0 : Fin 2) = 0 := (fixedIdx t).2.2.2.1.1
  have e1 : win0_5.index t (1 : Fin 2) = 0 := (fixedIdx t).2.2.2.1.2
  show X (((cfg0.win 5).blk t).view.emb (ix2 u k)) = _
  refine congrArg X (funext fun ax => Fin.ext ?_)
  match ax with
  | ⟨0, _⟩ => show win0_5.index t (0 : Fin 2) * 128 + 1 * u.val = u.val; omega
  | ⟨1, _⟩ => show win0_5.index t (1 : Fin 2) * 512 + 1 * k.val = k.val; omega

/-- Window 6's one block, read in any array, is the array. -/
theorem read6 (X : S1x512.Idx → EReal) (t : Fin cfg0.N) (u : Fin 1) (k : Fin 512) :
    (((cfg0.win 6).blk t).view.read (Elt Ideal) X) (ix2 u k) = X (ix2 u k) := by
  have e0 : win0_6.index t (0 : Fin 2) = 0 := (fixedIdx t).2.2.2.2.1.1
  have e1 : win0_6.index t (1 : Fin 2) = 0 := (fixedIdx t).2.2.2.2.1.2
  show X (((cfg0.win 6).blk t).view.emb (ix2 u k)) = _
  refine congrArg X (funext fun ax => Fin.ext ?_)
  match ax with
  | ⟨0, _⟩ => show win0_6.index t (0 : Fin 2) * 1 + 1 * u.val = u.val; omega
  | ⟨1, _⟩ => show win0_6.index t (1 : Fin 2) * 512 + 1 * k.val = k.val; omega

/-- Window 7's one block, read in any array, is the array. -/
theorem read7 (X : S512x512.Idx → EReal) (t : Fin cfg0.N) (u : Fin 512) (k : Fin 512) :
    (((cfg0.win 7).blk t).view.read (Elt Ideal) X) (ix2 u k) = X (ix2 u k) := by
  have e0 : win0_7.index t (0 : Fin 2) = 0 := (fixedIdx t).2.2.2.2.2.1.1
  have e1 : win0_7.index t (1 : Fin 2) = 0 := (fixedIdx t).2.2.2.2.2.1.2
  show X (((cfg0.win 7).blk t).view.emb (ix2 u k)) = _
  refine congrArg X (funext fun ax => Fin.ext ?_)
  match ax with
  | ⟨0, _⟩ => show win0_7.index t (0 : Fin 2) * 512 + 1 * u.val = u.val; omega
  | ⟨1, _⟩ => show win0_7.index t (1 : Fin 2) * 512 + 1 * k.val = k.val; omega

/-- Window 8's one block, read in any array, is the array. -/
theorem read8 (X : S1x512.Idx → EReal) (t : Fin cfg0.N) (u : Fin 1) (k : Fin 512) :
    (((cfg0.win 8).blk t).view.read (Elt Ideal) X) (ix2 u k) = X (ix2 u k) := by
  have e0 : win0_8.index t (0 : Fin 2) = 0 := (fixedIdx t).2.2.2.2.2.2.1.1
  have e1 : win0_8.index t (1 : Fin 2) = 0 := (fixedIdx t).2.2.2.2.2.2.1.2
  show X (((cfg0.win 8).blk t).view.emb (ix2 u k)) = _
  refine congrArg X (funext fun ax => Fin.ext ?_)
  match ax with
  | ⟨0, _⟩ => show win0_8.index t (0 : Fin 2) * 1 + 1 * u.val = u.val; omega
  | ⟨1, _⟩ => show win0_8.index t (1 : Fin 2) * 512 + 1 * k.val = k.val; omega

/-- Window 9's one block, read in any array, is the array. -/
theorem read9 (X : S512x128.Idx → EReal) (t : Fin cfg0.N) (u : Fin 512) (k : Fin 128) :
    (((cfg0.win 9).blk t).view.read (Elt Ideal) X) (ix2 u k) = X (ix2 u k) := by
  have e0 : win0_9.index t (0 : Fin 2) = 0 := (fixedIdx t).2.2.2.2.2.2.2.1.1
  have e1 : win0_9.index t (1 : Fin 2) = 0 := (fixedIdx t).2.2.2.2.2.2.2.1.2
  show X (((cfg0.win 9).blk t).view.emb (ix2 u k)) = _
  refine congrArg X (funext fun ax => Fin.ext ?_)
  match ax with
  | ⟨0, _⟩ => show win0_9.index t (0 : Fin 2) * 512 + 1 * u.val = u.val; omega
  | ⟨1, _⟩ => show win0_9.index t (1 : Fin 2) * 128 + 1 * k.val = k.val; omega

/-- Window 10's one block, read in any array, is the array. -/
theorem read10 (X : S1x128.Idx → EReal) (t : Fin cfg0.N) (u : Fin 1) (k : Fin 128) :
    (((cfg0.win 10).blk t).view.read (Elt Ideal) X) (ix2 u k) = X (ix2 u k) := by
  have e0 : win0_10.index t (0 : Fin 2) = 0 := (fixedIdx t).2.2.2.2.2.2.2.2.1
  have e1 : win0_10.index t (1 : Fin 2) = 0 := (fixedIdx t).2.2.2.2.2.2.2.2.2
  show X (((cfg0.win 10).blk t).view.emb (ix2 u k)) = _
  refine congrArg X (funext fun ax => Fin.ext ?_)
  match ax with
  | ⟨0, _⟩ => show win0_10.index t (0 : Fin 2) * 1 + 1 * u.val = u.val; omega
  | ⟨1, _⟩ => show win0_10.index t (1 : Fin 2) * 128 + 1 * k.val = k.val; omega

/-- Entry `(p, q)` of the result window's block at point `t` is entry `(1000 t + p, q)` of the result array. -/
theorem emb11 (t : Fin cfg0.N) (p : Fin 1000) (q : Fin 128) :
    ((cfg0.win 11).blk t).view.emb (ix2 p q) = (ix2 (rowOf t p) q : S100000x128.Idx) := by
  have e0 : win0_11.index t (0 : Fin 2) = t.val := (rowIdx t).2.2.2.2.1
  have e1 : win0_11.index t (1 : Fin 2) = 0 := (rowIdx t).2.2.2.2.2
  refine funext fun ax => Fin.ext ?_
  match ax with
  | ⟨0, _⟩ => show win0_11.index t (0 : Fin 2) * 1000 + 1 * p.val = t.val * 1000 + p.val; omega
  | ⟨1, _⟩ => show win0_11.index t (1 : Fin 2) * 128 + 1 * q.val = q.val; omega

end Cert.RowMlp.Whole

end
-- ==== Proof.KernelValue.lean ====
/-
  From blocks to the whole array.

  The body's stored value at entry `(p, q)` of the block is the row function of row `p` of the two row blocks, that is of
  row `1000 t + p` of the two arrays: so what point `t` writes back is block `t` of `G`. This is shown for arbitrary arrays
  first, then for the arrays the region finds. Row `r` lies in the block of point `r / 1000`, so the blocks cover the result
  array and it ends holding `G`.
-/
import proofs.«167504_j47536698032170_1_alg».proof.Proof.Gen.KernelIdeal.Value
import proofs.«167504_j47536698032170_1_alg».proof.Proof.KernelRow
import proofs.«167504_j47536698032170_1_alg».proof.Proof.BlockReads

noncomputable section

namespace Cert.RowMlp.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## What a point writes back -/

/-- The body's result at point `t`, from the blocks of ANY eleven arrays read through the windows, is block `t` of `G` of
    those arrays. -/
theorem flushed_core (A Z : S100000x128.Idx → EReal) (Wg Ws : S128x128.Idx → EReal) (bg : S1x128.Idx → EReal)
    (W1 : S128x512.Idx → EReal) (b1 : S1x512.Idx → EReal) (W2 : S512x512.Idx → EReal) (b2 : S1x512.Idx → EReal)
    (W3 : S512x128.Idx → EReal) (b3 : S1x128.Idx → EReal) (t : Fin cfg0.N) :
    (cfg0.win 11).cut (grid0.coords t) (out0_11 (F := Ideal)
        (((cfg0.win 0).blk t).view.read (Elt Ideal) A) (((cfg0.win 1).blk t).view.read (Elt Ideal) Z) (((cfg0.win 2).blk t).view.read (Elt Ideal) Wg) (((cfg0.win 3).blk t).view.read (Elt Ideal) Ws)
        (((cfg0.win 4).blk t).view.read (Elt Ideal) bg) (((cfg0.win 5).blk t).view.read (Elt Ideal) W1) (((cfg0.win 6).blk t).view.read (Elt Ideal) b1) (((cfg0.win 7).blk t).view.read (Elt Ideal) W2)
        (((cfg0.win 8).blk t).view.read (Elt Ideal) b2) (((cfg0.win 9).blk t).view.read (Elt Ideal) W3) (((cfg0.win 10).blk t).view.read (Elt Ideal) b3))
      = ((cfg0.win 11).blk t).view.read (Elt Ideal) (G A Z Wg Ws bg W1 b1 W2 b2 W3 b3) := by
  unfold out0_11
  rw [View.canon_unit_zero hz]
  simp only [View.ld_unit_zero (S := S1000x128) hz, View.ld_unit_zero (S := S128x128) hz, View.ld_unit_zero (S := S1x128) hz,
    View.ld_unit_zero (S := S128x512) hz, View.ld_unit_zero (S := S1x512) hz, View.ld_unit_zero (S := S512x512) hz,
    View.ld_unit_zero (S := S512x128) hz]
  funext j
  obtain ⟨p, q, rfl⟩ : ∃ (p : Fin 1000) (q : Fin 128), j = ix2 p q := ⟨j 0, j 1, eq_ix2 j⟩
  show k0_pay1 (F := Ideal) (k0_pay2 (F := Ideal)
        (((cfg0.win 0).blk t).view.read (Elt Ideal) A) (((cfg0.win 1).blk t).view.read (Elt Ideal) Z) (((cfg0.win 2).blk t).view.read (Elt Ideal) Wg) (((cfg0.win 3).blk t).view.read (Elt Ideal) Ws)
        (((cfg0.win 4).blk t).view.read (Elt Ideal) bg) (((cfg0.win 5).blk t).view.read (Elt Ideal) W1) (((cfg0.win 6).blk t).view.read (Elt Ideal) b1) (((cfg0.win 7).blk t).view.read (Elt Ideal) W2)
        (((cfg0.win 8).blk t).view.read (Elt Ideal) b2))
        (((cfg0.win 9).blk t).view.read (Elt Ideal) W3) (((cfg0.win 10).blk t).view.read (Elt Ideal) b3) (ix2 p q)
      = G A Z Wg Ws bg W1 b1 W2 b2 W3 b3 (((cfg0.win 11).blk t).view.emb (ix2 p q))
  rw [emb11 t p q, G_at]
  refine (Cert.RowMlp.Ker.stored_at
        (((cfg0.win 0).blk t).view.read (Elt Ideal) A) (((cfg0.win 1).blk t).view.read (Elt Ideal) Z) (((cfg0.win 2).blk t).view.read (Elt Ideal) Wg) (((cfg0.win 3).blk t).view.read (Elt Ideal) Ws)
        (((cfg0.win 4).blk t).view.read (Elt Ideal) bg) (((cfg0.win 5).blk t).view.read (Elt Ideal) W1) (((cfg0.win 6).blk t).view.read (Elt Ideal) b1) (((cfg0.win 7).blk t).view.read (Elt Ideal) W2)
        (((cfg0.win 8).blk t).view.read (Elt Ideal) b2) (((cfg0.win 9).blk t).view.read (Elt Ideal) W3) (((cfg0.win 10).blk t).view.read (Elt Ideal) b3) p q).trans ?_
  congr 1 <;> funext h <;> first
    | exact read0 A t p h
    | exact read1 Z t p h
    | exact read4 bg t 0 h
    | exact read6 b1 t 0 h
    | exact read8 b2 t 0 h
    | exact read10 b3 t 0 h
    | (funext c; first
        | exact read2 Wg t h c
        | exact read3 Ws t h c
        | exact read5 W1 t h c
        | exact read7 W2 t h c
        | exact read9 W3 t h c)

variable (m : (ℓ : Loc nD τ sig) → Buf (Elt Ideal) ℓ) (ρ : Dev nD → PrngReg)

/-! Each input window's block at a point is its array, as the region finds it, read through the window. -/
theorem iblk0 (c : Dev nD) (t : Fin cfg0.N) : iblk m c 0 t = ((cfg0.win 0).blk t).view.read (Elt Ideal) (V m c main_v22) := rfl
theorem iblk1 (c : Dev nD) (t : Fin cfg0.N) : iblk m c 1 t = ((cfg0.win 1).blk t).view.read (Elt Ideal) (V m c main_arg0) := rfl
theorem iblk2 (c : Dev nD) (t : Fin cfg0.N) : iblk m c 2 t = ((cfg0.win 2).blk t).view.read (Elt Ideal) (V m c main_arg2) := rfl
theorem iblk3 (c : Dev nD) (t : Fin cfg0.N) : iblk m c 3 t = ((cfg0.win 3).blk t).view.read (Elt Ideal) (V m c main_arg3) := rfl
theorem iblk4 (c : Dev nD) (t : Fin cfg0.N) : iblk m c 4 t = ((cfg0.win 4).blk t).view.read (Elt Ideal) (V m c main_v23) := rfl
theorem iblk5 (c : Dev nD) (t : Fin cfg0.N) : iblk m c 5 t = ((cfg0.win 5).blk t).view.read (Elt Ideal) (V m c main_arg5) := rfl
theorem iblk6 (c : Dev nD) (t : Fin cfg0.N) : iblk m c 6 t = ((cfg0.win 6).blk t).view.read (Elt Ideal) (V m c main_v24) := rfl
theorem iblk7 (c : Dev nD) (t : Fin cfg0.N) : iblk m c 7 t = ((cfg0.win 7).blk t).view.read (Elt Ideal) (V m c main_arg7) := rfl
theorem iblk8 (c : Dev nD) (t : Fin cfg0.N) : iblk m c 8 t = ((cfg0.win 8).blk t).view.read (Elt Ideal) (V m c main_v25) := rfl
theorem iblk9 (c : Dev nD) (t : Fin cfg0.N) : iblk m c 9 t = ((cfg0.win 9).blk t).view.read (Elt Ideal) (V m c main_arg9) := rfl
theorem iblk10 (c : Dev nD) (t : Fin cfg0.N) : iblk m c 10 t = ((cfg0.win 10).blk t).view.read (Elt Ideal) (V m c main_v26) := rfl

/-- WHAT POINT `t` WRITES BACK is block `t` of `G` of the arrays as the region finds them. -/
theorem flushed_eq (c : Dev nD) (t : Fin cfg0.N) :
    (dats m 0 c).flushed 11 t = ((cfg0.win 11).blk t).view.read (Elt Ideal) (G (V m c main_v22) (V m c main_arg0) (V m c main_arg2) (V m c main_arg3) (V m c main_v23) (V m c main_arg5) (V m c main_v24) (V m c main_arg7) (V m c main_v25) (V m c main_arg9) (V m c main_v26)) := by
  rw [Cert.KernelIdeal.Value.flushed11, iblk0, iblk1, iblk2, iblk3, iblk4, iblk5, iblk6, iblk7, iblk8, iblk9, iblk10]
  exact flushed_core _ _ _ _ _ _ _ _ _ _ _ t

/-! ## The cover, the array -/

/-- An index of the result array is in point `t`'s block iff each coordinate is in the block's range on its axis. -/
theorem mem_blk (t : Fin cfg0.N) (i : S100000x128.Idx) :
    i ∈ ((cfg0.win 11).blk t).view.set ↔ ∀ a : Fin 2, win0_11.index t a * S1000x128.size a ≤ (i a).val ∧ (i a).val < win0_11.index t a * S1000x128.size a + S1000x128.size a := by
  show i ∈ ((View.whole main_v27).slice (win0_11.rect t)).set ↔ _
  rw [View.set_slice_whole, Rect.mem_set_unit]
  exact Iff.rfl

/-- Row `r` lies in the block of point `r / 1000`: the blocks cover the result array. -/
theorem covered (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have hN : cfg0.N = 100 := N_0
  have hlt : (i 0).val / 1000 < cfg0.N := by rw [hN]; omega
  have e0 : win0_11.index ⟨(i 0).val / 1000, hlt⟩ (0 : Fin 2) = (i 0).val / 1000 := (rowIdx ⟨(i 0).val / 1000, hlt⟩).2.2.2.2.1
  have e1 : win0_11.index ⟨(i 0).val / 1000, hlt⟩ (1 : Fin 2) = 0 := (rowIdx ⟨(i 0).val / 1000, hlt⟩).2.2.2.2.2
  refine ⟨⟨(i 0).val / 1000, hlt⟩, flush0_11 _, ?_⟩
  rw [mem_blk]
  intro a
  match a with
  | ⟨0, _⟩ => show win0_11.index ⟨(i 0).val / 1000, hlt⟩ (0 : Fin 2) * 1000 ≤ (i 0).val ∧ (i 0).val < win0_11.index ⟨(i 0).val / 1000, hlt⟩ (0 : Fin 2) * 1000 + 1000; omega
  | ⟨1, _⟩ => show win0_11.index ⟨(i 0).val / 1000, hlt⟩ (1 : Fin 2) * 128 ≤ (i 1).val ∧ (i 1).val < win0_11.index ⟨(i 0).val / 1000, hlt⟩ (1 : Fin 2) * 128 + 128; omega

/-- THE RESULT ARRAY after the run is `G` of the arrays as the region finds them. -/
theorem final (c : Dev nD) : (dats m 0 c).arrAt 11 cfg0.N = G (V m c main_v22) (V m c main_arg0) (V m c main_arg2) (V m c main_arg3) (V m c main_v23) (V m c main_arg5) (V m c main_v24) (V m c main_arg7) (V m c main_v25) (V m c main_arg9) (V m c main_v26) :=
  (dats m 0 c).arrAt_eq_of_cover 11 (G (V m c main_v22) (V m c main_arg0) (V m c main_arg2) (V m c main_arg3) (V m c main_v23) (V m c main_arg5) (V m c main_v24) (V m c main_arg7) (V m c main_v25) (V m c main_arg9) (V m c main_v26)) (fun t _ => flushed_eq m c t) covered

end Cert.RowMlp.Whole

end
-- ==== Proof.RefRow.lean ====
/-
  The reference, read one row at a time.

  Entry `(r, c)` of each stage of the reference's dense chain depends on row `r` only: a matrix product's entry is
  the sum over the contracted coordinate `h` of the left operand at `(r, h)` times the weight at `(h, c)`, a bias is
  read at `c`, and `max · 0` and `tanh` act entry by entry. So stage by stage the reference is the row function of
  `Spec.lean` applied to row `r` of the aggregated features (left as the host's own term, never opened) and row `r` of the
  node features.
-/
import proofs.«167504_j47536698032170_1_alg».proof.Proof.Gen.ReferenceIdeal.Read
import proofs.«167504_j47536698032170_1_alg».proof.Proof.Spec

noncomputable section

namespace Cert.RowMlp.Ref

open Cert.ReferenceIdeal Cert.ReferenceIdeal.Read Idealize.ShloMosaic Idealize.ShloMosaic.ValueIdx Cert.LibDenseLayer

variable (x0 : (⟨S100000x128, .f32⟩ : BufTy).Contents (Elt Ideal)) (x1 : (⟨S2x600000, .i32⟩ : BufTy).Contents (Elt Ideal))
  (x2 x3 : (⟨S128x128, .f32⟩ : BufTy).Contents (Elt Ideal)) (x4 : (⟨S128, .f32⟩ : BufTy).Contents (Elt Ideal))
  (x5 : (⟨S128x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x128, .f32⟩ : BufTy).Contents (Elt Ideal)) (x10 : (⟨S128, .f32⟩ : BufTy).Contents (Elt Ideal))

/-! ## Where each product reads its operands: the left at `(r, h)`, the right at `(h, c)`; each bias at `c` -/

theorem l23 (r : Fin 100000) (c h : Fin 128) : lidx_main_v23 (ix2 r c) h = ix2 r h :=
  funext fun a => Fin.ext (by match a with | ⟨0, _⟩ => rfl | ⟨1, _⟩ => rfl)
theorem r23 (r : Fin 100000) (c h : Fin 128) : ridx_main_v23 (ix2 r c) h = ix2 h c :=
  funext fun a => Fin.ext (by match a with | ⟨0, _⟩ => rfl | ⟨1, _⟩ => rfl)
theorem l24 (r : Fin 100000) (c h : Fin 128) : lidx_main_v24 (ix2 r c) h = ix2 r h :=
  funext fun a => Fin.ext (by match a with | ⟨0, _⟩ => rfl | ⟨1, _⟩ => rfl)
theorem r24 (r : Fin 100000) (c h : Fin 128) : ridx_main_v24 (ix2 r c) h = ix2 h c :=
  funext fun a => Fin.ext (by match a with | ⟨0, _⟩ => rfl | ⟨1, _⟩ => rfl)
theorem l30 (r : Fin 100000) (c : Fin 512) (h : Fin 128) : lidx_main_v30 (ix2 r c) h = ix2 r h :=
  funext fun a => Fin.ext (by match a with | ⟨0, _⟩ => rfl | ⟨1, _⟩ => rfl)
theorem r30 (r : Fin 100000) (c : Fin 512) (h : Fin 128) : ridx_main_v30 (ix2 r c) h = ix2 h c :=
  funext fun a => Fin.ext (by match a with | ⟨0, _⟩ => rfl | ⟨1, _⟩ => rfl)
theorem l35 (r : Fin 100000) (c h : Fin 512) : lidx_main_v35 (ix2 r c) h = ix2 r h :=
  funext fun a => Fin.ext (by match a with | ⟨0, _⟩ => rfl | ⟨1, _⟩ => rfl)
theorem r35 (r : Fin 100000) (c h : Fin 512) : ridx_main_v35 (ix2 r c) h = ix2 h c :=
  funext fun a => Fin.ext (by match a with | ⟨0, _⟩ => rfl | ⟨1, _⟩ => rfl)
theorem l40 (r : Fin 100000) (c : Fin 128) (h : Fin 512) : lidx_main_v40 (ix2 r c) h = ix2 r h :=
  funext fun a => Fin.ext (by match a with | ⟨0, _⟩ => rfl | ⟨1, _⟩ => rfl)
theorem r40 (r : Fin 100000) (c : Fin 128) (h : Fin 512) : ridx_main_v40 (ix2 r c) h = ix2 h c :=
  funext fun a => Fin.ext (by match a with | ⟨0, _⟩ => rfl | ⟨1, _⟩ => rfl)
theorem b27 (r : Fin 100000) (c : Fin 128) : idx_main_v26 (idx_main_v27 (ix2 r c)) = ix1 c :=
  funext fun a => Fin.ext (by match a with | ⟨0, _⟩ => rfl)
theorem b32 (r : Fin 100000) (c : Fin 512) : idx_main_v31 (idx_main_v32 (ix2 r c)) = ix1 c :=
  funext fun a => Fin.ext (by match a with | ⟨0, _⟩ => rfl)
theorem b37 (r : Fin 100000) (c : Fin 512) : idx_main_v36 (idx_main_v37 (ix2 r c)) = ix1 c :=
  funext fun a => Fin.ext (by match a with | ⟨0, _⟩ => rfl)
theorem b42 (r : Fin 100000) (c : Fin 128) : idx_main_v41 (idx_main_v42 (ix2 r c)) = ix1 c :=
  funext fun a => Fin.ext (by match a with | ⟨0, _⟩ => rfl)

/-! ## The stages, row by row -/

/-- The graph-convolution stage at `(r, c)`: `max (a · Wg + z · Ws + bg) 0` of row `r`. -/
theorem conv_at (r : Fin 100000) (c : Fin 128) :
    val_main_v29 (F := Ideal) x0 x1 x2 x3 x4 (ix2 r c)
      = conv (fun h => val_main_v22 (F := Ideal) x0 x1 (ix2 r h)) (fun h => x0 (ix2 r h))
          (fun h c => x2 (ix2 h c)) (fun h c => x3 (ix2 h c)) (fun c => x4 (ix1 c)) c := by
  rw [val_main_v29_apply, val_main_v28_apply, val_main_v25_apply, val_main_v23_apply, val_main_v24_apply,
    val_main_v27_apply, val_main_v26_apply, val_main_call0_v0_apply, val_main_call0_cst_apply]
  simp only [l23, r23, l24, r24, b27]
  rfl

/-- The first hidden stage at `(r, c)`. -/
theorem hidden1_at (r : Fin 100000) (c : Fin 512) :
    val_main_v34 (F := Ideal) x0 x1 x2 x3 x4 x5 x6 (ix2 r c)
      = hidden1 (fun h => val_main_v22 (F := Ideal) x0 x1 (ix2 r h)) (fun h => x0 (ix2 r h))
          (fun h c => x2 (ix2 h c)) (fun h c => x3 (ix2 h c)) (fun c => x4 (ix1 c))
          (fun h c => x5 (ix2 h c)) (fun c => x6 (ix1 c)) c := by
  rw [val_main_v34_apply, val_main_v33_apply, val_main_v30_apply, val_main_v32_apply, val_main_v31_apply]
  simp only [l30, r30, b32, conv_at, Ideal.hostUnary_tanh_def, Ideal.addf_def]
  unfold hidden1 affine
  rfl

/-- The second hidden stage at `(r, c)`. -/
theorem hidden2_at (r : Fin 100000) (c : Fin 512) :
    val_main_v39 (F := Ideal) x0 x1 x2 x3 x4 x5 x6 x7 x8 (ix2 r c)
      = hidden2 (fun h => val_main_v22 (F := Ideal) x0 x1 (ix2 r h)) (fun h => x0 (ix2 r h))
          (fun h c => x2 (ix2 h c)) (fun h c => x3 (ix2 h c)) (fun c => x4 (ix1 c))
          (fun h c => x5 (ix2 h c)) (fun c => x6 (ix1 c)) (fun h c => x7 (ix2 h c)) (fun c => x8 (ix1 c)) c := by
  rw [val_main_v39_apply, val_main_v38_apply, val_main_v35_apply, val_main_v37_apply, val_main_v36_apply]
  simp only [l35, r35, b37, hidden1_at, Ideal.hostUnary_tanh_def, Ideal.addf_def]
  unfold hidden2 affine
  rfl

/-- The reference's result at `(r, c)` is the row function of row `r` of the aggregated features and of the node
    features, at `c`. -/
theorem result_at (r : Fin 100000) (c : Fin 128) :
    val_main_v43 (F := Ideal) x0 x1 x2 x3 x4 x5 x6 x7 x8 x9 x10 (ix2 r c)
      = rowOut (fun h => val_main_v22 (F := Ideal) x0 x1 (ix2 r h)) (fun h => x0 (ix2 r h))
          (fun h c => x2 (ix2 h c)) (fun h c => x3 (ix2 h c)) (fun c => x4 (ix1 c))
          (fun h c => x5 (ix2 h c)) (fun c => x6 (ix1 c)) (fun h c => x7 (ix2 h c)) (fun c => x8 (ix1 c))
          (fun h c => x9 (ix2 h c)) (fun c => x10 (ix1 c)) c := by
  rw [val_main_v43_apply, val_main_v40_apply, val_main_v42_apply, val_main_v41_apply]
  simp only [l40, r40, b42, hidden2_at, Ideal.addf_def]
  unfold rowOut affine
  rfl

end Cert.RowMlp.Ref

end
-- ==== Proof.Bridge.lean ====
/-
  The kernel's result array is the reference's result.

  Before the region the host computes the aggregated features from the node features and the edge list — the same
  operations, in the same order, with the same constants, as the reference's own first stage, so the array the region
  finds is that stage's term of the two arguments, and it is never opened here — and recasts each bias `[n]` as a row
  `[1, n]`, whose entry `(0, c)` is the bias at `c`. The node features and the weights reach the region as launched.
  Row by row, `G` of these arrays and the reference's last stage are then the same row function of the same rows.
-/
import proofs.«167504_j47536698032170_1_alg».proof.Proof.KernelValue
import proofs.«167504_j47536698032170_1_alg».proof.Proof.RefRow
import Idealize.ShloMosaic.Lib.StableHlo.Run
import Idealize.ShloMosaic.Lib.ValueLayout

noncomputable section

namespace Cert.RowMlp.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays the region finds -/

set_option maxHeartbeats 2000000 in
/-- The aggregated features the region finds are the reference's aggregation stage of the node features and the edge
    list: the two programs spell that stage with the same operations and constants. -/
theorem agg_found (c : Dev nD) : (V m c main_v22 : S100000x128.Idx → EReal)
    = Cert.ReferenceIdeal.Read.val_main_v22 (F := Ideal) (m ((c : Thread nD τ).loc main_arg0)) (m ((c : Thread nD τ).loc main_arg1)) := by
  dsimp only [Gen.V, Gen.hostOps0]
  after_results_simp
  rfl

/-- The first bias as the region finds it: recast as a row. -/
theorem bg_found (c : Dev nD) : (V m c main_v23 : S1x128.Idx → EReal) = shapeCast S1x128 (m ((c : Thread nD τ).loc main_arg4)) shapeCasts_S128_S1x128 := by
  dsimp only [Gen.V, Gen.hostOps0]
  after_results
  rfl

theorem b1_found (c : Dev nD) : (V m c main_v24 : S1x512.Idx → EReal) = shapeCast S1x512 (m ((c : Thread nD τ).loc main_arg6)) shapeCasts_S512_S1x512 := by
  dsimp only [Gen.V, Gen.hostOps0]
  after_results
  rfl

theorem b2_found (c : Dev nD) : (V m c main_v25 : S1x512.Idx → EReal) = shapeCast S1x512 (m ((c : Thread nD τ).loc main_arg8)) shapeCasts_S512_S1x512 := by
  dsimp only [Gen.V, Gen.hostOps0]
  after_results
  rfl

theorem b3_found (c : Dev nD) : (V m c main_v26 : S1x128.Idx → EReal) = shapeCast S1x128 (m ((c : Thread nD τ).loc main_arg10)) shapeCasts_S128_S1x128 := by
  dsimp only [Gen.V, Gen.hostOps0]
  after_results
  rfl

/-! ## One function -/

/-- `G` of the arrays the region finds is the reference's result term of the arguments. -/
theorem kernel_is_reference (c : Dev nD) :
    Cert.RowMlp.Whole.G (V m c main_v22) (V m c main_arg0) (V m c main_arg2) (V m c main_arg3) (V m c main_v23) (V m c main_arg5)
        (V m c main_v24) (V m c main_arg7) (V m c main_v25) (V m c main_arg9) (V m c main_v26)
      = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨r, q, rfl⟩ : ∃ (r : Fin 100000) (q : Fin 128), i = ix2 r q := ⟨i 0, i 1, eq_ix2 i⟩
  rw [Cert.RowMlp.Whole.G_at, Cert.RowMlp.Ref.result_at, agg_found, bg_found, b1_found, b2_found, b3_found,
    V_main_arg0, V_main_arg2, V_main_arg3, V_main_arg5, V_main_arg7, V_main_arg9]
  simp only [shapeCast_a_1a_apply]

end Cert.RowMlp.Bridge

end
-- ==== Proof.lean ====
/-
  A graph layer fused into one kernel against its plain reference, equal on the extended reals.

  Both programs first mean-aggregate neighbour features along the edges on the host (a gather, two scatter-adds, a
  division), with the same operations and constants. The reference then applies, to the whole arrays,
  `max (agg · Wg + z · Ws + bg) 0`, two `tanh` dense layers and a last dense layer. The kernel does the same on blocks of
  1000 rows, with every operand of a matrix product first rounded to a narrower float format — the identity on the
  extended reals — and each product taken into a zero accumulator. A matrix product's entry is a sum over the
  contracted coordinate on both sides, so each output row is the same function of one row of the aggregated features
  and one row of the node features; no finiteness of the inputs is needed. The idealization rewrote nothing, so the
  kernel's idealized text is its own text read on the extended reals.

  Modules: `Spec` the row function; `RefRow` the reference row by row; `KernelRow` the body's stored value row by row;
  `BlockIndex`, `BlockReads`, `KernelValue` from the blocks to the whole result array; `Bridge` the arrays the region
  finds and the two results as one function. Here: the five claims.
-/
import proofs.«167504_j47536698032170_1_alg».proof.Defs
import proofs.«167504_j47536698032170_1_alg».proof.Proof.Gen.Kernel
import proofs.«167504_j47536698032170_1_alg».proof.Proof.Gen.Kernel.Skeleton
import proofs.«167504_j47536698032170_1_alg».proof.Proof.Gen.Kernel.Launch
import proofs.«167504_j47536698032170_1_alg».proof.Proof.Gen.Kernel.Points
import proofs.«167504_j47536698032170_1_alg».proof.Proof.Gen.Kernel.Frame
import proofs.«167504_j47536698032170_1_alg».proof.Proof.Gen.KernelIdeal
import proofs.«167504_j47536698032170_1_alg».proof.Proof.Gen.KernelIdeal.Skeleton
import proofs.«167504_j47536698032170_1_alg».proof.Proof.Gen.KernelIdeal.Launch
import proofs.«167504_j47536698032170_1_alg».proof.Proof.Gen.KernelIdeal.Points
import proofs.«167504_j47536698032170_1_alg».proof.Proof.Gen.KernelIdeal.Frame
import proofs.«167504_j47536698032170_1_alg».proof.Proof.Gen.ReferenceIdeal
import proofs.«167504_j47536698032170_1_alg».proof.Proof.Gen.Pre_finite_inputs
import proofs.«167504_j47536698032170_1_alg».proof.Proof.Gen.KernelIdeal.Value
import proofs.«167504_j47536698032170_1_alg».proof.Proof.Gen.ReferenceIdeal.Run
import proofs.«167504_j47536698032170_1_alg».proof.Proof.Gen.ReferenceIdeal.Read
import proofs.«167504_j47536698032170_1_alg».proof.Proof.Bridge
import Idealize.ShloMosaic.Adequacy
import Idealize.ShloMosaic.Init

noncomputable section

namespace Cert.Proof

open Idealize.ShloMosaic Idealize.ShloMosaic.TcCoe Idealize.SL.Sem

/-- Every weakly fair execution of the kernel terminates without a fault and leaves its arguments unchanged. -/
theorem frame_k : Cert.frame_Kernel := fun m ρ _ => Cert.Kernel.Gen.frame m ρ

/-- The same for the kernel read on the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's result term of the arguments:
    the kernel's result array is `G` of the arrays its region finds, which is that term; the reference's run ends at
    that term of its own arguments, which are the kernel's. -/
theorem algebraic : Cert.algebraic_KernelIdeal_ReferenceIdeal := by
  intro m ρ m' ρ' _ hagree
  refine ⟨fun c => Cert.ReferenceIdeal.Read.val_main_v43 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans ((Cert.RowMlp.Whole.final m c).trans (Cert.RowMlp.Bridge.kernel_is_reference m c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v43_eq]
    obtain ⟨a0, a1, a2, a3, a4, a5, a6, a7, a8, a9, a10⟩ := hagree c
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
